-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelHost.lean ====
/-
  What the host operations around the two regions leave in the regions' input arrays.

  The mean aggregate of a feature array h over the edges: with src and dst the two rows of the edge array, a negative src
  wrapped by adding 100000, the rows h[src] are gathered, summed by destination row into a zero array, and divided
  entrywise by max(count, 1) spread over the 128 columns, where count[r] accumulates a one for every edge whose
  destination is r. The same chain runs before each region: on the input features before the first, on the first
  region's output before the second. Here the chain is named once as a function of h and the two index rows, and each
  array a region stages is read back to it or to an argument array as launched.
-/
import proofs.«132658_j120259084569_1_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

/-- Row 0 of the edge array: the source rows. -/
def row0 (ei : IVec S2x1600000 32) : IVec S1600000 32 :=
  shapeCast _ (extractStridedSlice S1x1600000 ![0, 0] ei slices_S2x1600000_S1x1600000_0_0) shapeCasts_S1x1600000_S1600000

/-- Row 1 of the edge array: the destination rows. -/
def row1 (ei : IVec S2x1600000 32) : IVec S1600000 32 :=
  shapeCast _ (extractStridedSlice S1x1600000 ![1, 0] ei slices_S2x1600000_S1x1600000_1_0) shapeCasts_S1x1600000_S1600000

/-- The source rows as a column of gather indices, a negative one wrapped by adding 100000. -/
def srcCol (v1 : IVec S1600000 32) : IVec S1600000x1 32 :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The destination rows as a column of scatter indices. -/
def dstCol (v3 : IVec S1600000 32) : IVec S1600000x1 32 :=
  broadcastInDim S1600000x1 ![0] bcast_S1600000_S1600000x1_0 v3

/-- The gathered rows summed by destination row. -/
def summed (h : FVec Ideal S100000x128 .f32) (v1 v3 : IVec S1600000 32) : FVec Ideal S100000x128 .f32 :=
  Host.scatterAdd scatter_S100000x128_S1600000x1_S1600000x128_1_0_0_1
    (broadcastInDim S100000x128 ![] bcast_S_S100000x128 (constant S_ .f32 0x00000000#32)) (dstCol v3)
    (Host.gather gather_S100000x128_S1600000x1_S1600000x128_1_0_n_n_0_1_1128 h (srcCol v1))

/-- The number of edges into each row, at least one. -/
def countRow (v3 : IVec S1600000 32) : FVec Ideal S100000 .f32 :=
  maximumf
    (Host.scatterAdd scatter_S100000_S1600000x1_S1600000_n_0_0_1
      (broadcastInDim S100000 ![] bcast_S_S100000 (constant S_ .f32 0x00000000#32)) (dstCol v3)
      (broadcastInDim S1600000 ![] bcast_S_S1600000 (constant S_ .f32 0x3F800000#32)))
    (broadcastInDim S100000 ![] bcast_S_S100000 (constant S_ .f32 0x3F800000#32))

/-- The divisor: the counts spread over the 128 columns. -/
def countSpread (v3 : IVec S1600000 32) : FVec Ideal S100000x128 .f32 :=
  broadcastInDim S100000x128 ![0, 1] bcast_S100000x1_S100000x128_0_1
    (broadcastInDim S100000x1 ![0] bcast_S100000_S100000x1_0 (countRow v3))

/-- The mean aggregate of h over the edges. -/
def agg (h : FVec Ideal S100000x128 .f32) (v1 v3 : IVec S1600000 32) : FVec Ideal S100000x128 .f32 :=
  Host.divf (summed h v1 v3) (countSpread v3)

variable (m : (ℓ : Loc nD τ sig) → Buf (Elt Ideal) ℓ) (ρ : Dev nD → PrngReg)

/-! ## Region 0's input arrays -/

set_option maxHeartbeats 4000000 in
theorem V1_v22 (c : Dev nD) :
    V1 (F := Ideal) m ρ c main_v22
      = agg (m ((c : Thread nD τ).loc main_arg0)) (row0 (m ((c : Thread nD τ).loc main_arg1))) (row1 (m ((c : Thread nD τ).loc main_arg1))) := by
  dsimp only [V1, W1]
  after_results_simp
  rfl

theorem V1_arg0 (c : Dev nD) : V1 (F := Ideal) m ρ c main_arg0 = m ((c : Thread nD τ).loc main_arg0) := by
  dsimp only [V1, W1]
  after_results <;> rfl

theorem V1_arg2 (c : Dev nD) : V1 (F := Ideal) m ρ c main_arg2 = m ((c : Thread nD τ).loc main_arg2) := by
  dsimp only [V1, W1]
  after_results <;> rfl

theorem V1_arg4 (c : Dev nD) : V1 (F := Ideal) m ρ c main_arg4 = m ((c : Thread nD τ).loc main_arg4) := by
  dsimp only [V1, W1]
  after_results <;> rfl

theorem V1_v23 (c : Dev nD) :
    V1 (F := Ideal) m ρ c main_v23 = shapeCast _ (m ((c : Thread nD τ).loc main_arg3)) shapeCasts_S128_S1x128 := by
  dsimp only [V1, W1]
  after_results <;> rfl

/-! ## Region 1's input arrays

The host operations between the regions read the first region's output and the two index rows computed before the
first region; no array of the first region other than its output is written by it, so everything else still holds
what the first stretch of host operations left. -/

theorem W2_v1 (c : Dev nD) :
    W2 (F := Ideal) m ρ c (Proc.devRef .tc main_v1) = row0 (m ((c : Thread nD τ).loc main_arg1)) := by
  rw [W2_of_ne m ρ c main_v1 (by decide)]
  dsimp only [W1]
  after_results <;> rfl

theorem W2_v3 (c : Dev nD) :
    W2 (F := Ideal) m ρ c (Proc.devRef .tc main_v3) = row1 (m ((c : Thread nD τ).loc main_arg1)) := by
  rw [W2_of_ne m ρ c main_v3 (by decide)]
  dsimp only [W1]
  after_results <;> rfl

theorem V3_v24 (c : Dev nD) :
    V3 (F := Ideal) m ρ c main_v24 = W2 (F := Ideal) m ρ c (Proc.devRef .tc main_v24) := by
  dsimp only [V3, W3]
  after_results <;> rfl

set_option maxHeartbeats 4000000 in
theorem V3_v43 (c : Dev nD) :
    V3 (F := Ideal) m ρ c main_v43
      = agg (W2 (F := Ideal) m ρ c (Proc.devRef .tc main_v24)) (row0 (m ((c : Thread nD τ).loc main_arg1)))
          (row1 (m ((c : Thread nD τ).loc main_arg1))) := by
  rw [← W2_v1 m ρ c, ← W2_v3 m ρ c]
  dsimp only [V3, W3]
  after_results_simp
  rfl

theorem V3_arg5 (c : Dev nD) : V3 (F := Ideal) m ρ c main_arg5 = m ((c : Thread nD τ).loc main_arg5) := by
  dsimp only [V3, W3]
  after_results
  rw [W2_of_ne m ρ c main_arg5 (by decide)]
  dsimp only [W1]
  after_results <;> rfl

theorem V3_arg7 (c : Dev nD) : V3 (F := Ideal) m ρ c main_arg7 = m ((c : Thread nD τ).loc main_arg7) := by
  dsimp only [V3, W3]
  after_results
  rw [W2_of_ne m ρ c main_arg7 (by decide)]
  dsimp only [W1]
  after_results <;> rfl

theorem V3_v44 (c : Dev nD) :
    V3 (F := Ideal) m ρ c main_v44 = shapeCast _ (m ((c : Thread nD τ).loc main_arg6)) shapeCasts_S64_S1x64 := by
  dsimp only [V3, W3]
  after_results
  rw [W2_of_ne m ρ c main_arg6 (by decide)]
  dsimp only [W1]
  after_results <;> rfl

end Cert.KernelIdeal.HostVals

end
-- ==== Proof.BridgeSum.lean ====
/-
  The two programs' sums by destination are one array.

  Both gather the rows h[src] (a negative source row wrapped by adding 100000) and accumulate them by destination row
  into a zero array: the same operations on the same operands, the two programs' dimension records carrying the same
  numbers.
-/
import proofs.«132658_j120259084569_1_alg».proof.Proof.KernelHost
import proofs.«132658_j120259084569_1_alg».proof.Proof.Gen.ReferenceIdeal.Read

set_option maxRecDepth 16384

noncomputable section

namespace Cert.Bridge

open Idealize.ShloMosaic Idealize.ShloMosaic.TcCoe
open Cert.KernelIdeal.HostVals Cert.ReferenceIdeal.Read

/-- The reference's gathered rows summed by destination, for any feature array. -/
def refSummed (h : FVec Ideal Cert.ReferenceIdeal.S100000x128 .f32) (x1 : IVec Cert.ReferenceIdeal.S2x1600000 32) :
    FVec Ideal Cert.ReferenceIdeal.S100000x128 .f32 :=
  Host.scatterAdd Cert.ReferenceIdeal.scatter_S100000x128_S1600000x1_S1600000x128_1_0_0_1 (val_main_v11 (F := Ideal))
    (val_main_v12 (F := Ideal) x1)
    (Host.gather Cert.ReferenceIdeal.gather_S100000x128_S1600000x1_S1600000x128_1_0_n_n_0_1_1128 h (val_main_v9 (F := Ideal) x1))

theorem row1_eq (x1 : IVec Cert.ReferenceIdeal.S2x1600000 32) : row1 x1 = val_main_v3 (F := Ideal) x1 := rfl
theorem row0_eq (x1 : IVec Cert.ReferenceIdeal.S2x1600000 32) : row0 x1 = val_main_v1 (F := Ideal) x1 := rfl

theorem dstCol_eq (x1 : IVec Cert.ReferenceIdeal.S2x1600000 32) : dstCol (row1 x1) = val_main_v12 (F := Ideal) x1 := by
  rw [row1_eq]; rfl

theorem srcCol_eq (x1 : IVec Cert.ReferenceIdeal.S2x1600000 32) : srcCol (row0 x1) = val_main_v9 (F := Ideal) x1 := by
  rw [row0_eq]; rfl

/-- The two programs' sums by destination are the same operations on the same operands. -/
theorem summed_eq (h : FVec Ideal Cert.ReferenceIdeal.S100000x128 .f32) (x1 : IVec Cert.ReferenceIdeal.S2x1600000 32) :
    summed h (row0 x1) (row1 x1) = refSummed h x1 := by
  unfold summed refSummed
  rw [dstCol_eq, srcCol_eq]
  rfl

end Cert.Bridge

end
-- ==== Proof.LibCountScatter.lean ====
/-
  Counting by scatter: a row-indexed count and a column count agree.

  Two ways to count, for each row r < n, the updates q < e whose index word reads r. One accumulates updates of
  shape [e] into an operand of shape [n] (no window axis); the other accumulates updates of shape [e, 1] into an
  operand of shape [n, 1] (a window axis of extent one). Both read the landing row, signed and unclamped, from
  column 0 of the same [e, 1] index array, and both drop an update whose row falls outside [0, n).

  On the extended reals the accumulating scatter is the operand entry plus the sum of the updates landing on it, so
  it suffices that update q lands on r in one exactly when (q, 0) lands on (r, 0) in the other: the extra axis
  contributes start 0 and window coordinate 0, always in range. The sums then run over corresponding index sets
  (q ↦ (q, 0) is a bijection of [e] with [e, 1]) with equal terms. Only re-indexing of a finite sum is used; nothing
  needs the entries to be finite.
-/
import Idealize.ShloMosaic.Lib.ValueIdx
import Idealize.ShloMosaic.PureOps.Ideal.Laws

noncomputable section

namespace Cert.LibCountScatter

open Idealize.ShloMosaic Idealize.ShloMosaic.ValueIdx

variable {n e w : ℕ}

/-- The record of the row-indexed scatter: updates [e] into an operand [n], the row read off index column 0. -/
abbrev dRow (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

/-- The record of the column scatter: updates [e, 1] into an operand [n, 1], axis 1 a window axis of extent one. -/
abbrev dCol (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ := ⟨[1], [0], [0], 1, wf⟩

/-- The row record's start on axis 0 is the index word of update q. -/
theorem row_start (wf) (idx : IVec ⟨2, ![e, 1]⟩ w) (q : Fin e) :
    (dRow (n := n) wf).start (ix1 q) idx 0 = (idx (ix2 q (0 : Fin 1))).toInt := by
  unfold ScatterDims.start
  rw [dif_pos (show (0 : Fin 1) ∈ ([0] : List (Fin 1)) by decide)]
  congr 2
  funext b
  match b with
  | ⟨0, _⟩ => rfl
  | ⟨1, _⟩ => rfl

/-- The row record has no window axis: the window coordinate is 0. -/
theorem row_window (wf) (q : Fin e) : (dRow (n := n) wf).window (ix1 q) 0 = 0 := by
  unfold ScatterDims.window
  have h : (0 : Fin 1) ∉ (dRow (n := n) (e := e) wf).sKept := by
    show (0 : Fin 1) ∉ ((List.finRange 1).filter (· ∉ ([0] : List (Fin 1)))); decide
  rw [dif_neg h]

/-- The column record's start on axis 0 is the same index word. -/
theorem col_start0 (wf) (idx : IVec ⟨2, ![e, 1]⟩ w) (q : Fin e) :
    (dCol (n := n) wf).start (ix2 q (0 : Fin 1)) idx 0 = (idx (ix2 q (0 : Fin 1))).toInt := by
  unfold ScatterDims.start
  rw [dif_pos (show (0 : Fin 2) ∈ ([0] : List (Fin 2)) by decide)]
  congr 2
  funext b
  match b with
  | ⟨0, _⟩ => rfl
  | ⟨1, _⟩ => rfl

/-- Axis 1 is not named by the index vector: its start is 0. -/
theorem col_start1 (wf) (idx : IVec ⟨2, ![e, 1]⟩ w) (q : Fin e) :
    (dCol (n := n) wf).start (ix2 q (0 : Fin 1)) idx 1 = 0 := by
  unfold ScatterDims.start
  rw [dif_neg (show (1 : Fin 2) ∉ ([0] : List (Fin 2)) by decide)]

/-- Axis 0 is an inserted axis: no window coordinate. -/
theorem col_window0 (wf) (q : Fin e) : (dCol (n := n) wf).window (ix2 q (0 : Fin 1)) 0 = 0 := by
  unfold ScatterDims.window
  have h : (0 : Fin 2) ∉ (dCol (n := n) (e := e) wf).sKept := by
    show (0 : Fin 2) ∉ ((List.finRange 2).filter (· ∉ ([0] : List (Fin 2)))); decide
  rw [dif_neg h]

/-- Axis 1's window coordinate is the update's coordinate on its unit axis, which is 0. -/
theorem col_window1 (wf) (q : Fin e) : (dCol (n := n) wf).window (ix2 q (0 : Fin 1)) 1 = 0 := by
  unfold ScatterDims.window
  have h : (1 : Fin 2) ∈ (dCol (n := n) (e := e) wf).sKept := by
    show (1 : Fin 2) ∈ ((List.finRange 2).filter (· ∉ ([0] : List (Fin 2)))); decide
  rw [dif_pos h]
  rfl

/-- A row update lands on row r exactly when its index word reads r. -/
theorem row_lands (wf) (idx : IVec ⟨2, ![e, 1]⟩ w) (q : Fin e) (r : Fin n) :
    (dRow (n := n) wf).resultIdx? (ix1 q) idx = some (ix1 r) ↔ (idx (ix2 q (0 : Fin 1))).toInt = (r.val : Int) := by
  unfold ScatterDims.resultIdx?
  split
  · rename_i h
    rw [Option.some.injEq]
    have h0 := h 0
    rw [row_start, row_window] at h0
    constructor
    · intro heq
      have hv : ((dRow (n := n) wf).start (ix1 q) idx 0 + ((dRow (n := n) wf).window (ix1 q) 0 : ℕ)).toNat = r.val :=
        congrArg (fun f : (⟨1, ![n]⟩ : Shape).Idx => (f 0).val) heq
      rw [row_start, row_window] at hv
      omega
    · intro heq
      funext a
      match a with
      | ⟨0, _⟩ =>
        apply Fin.ext
        show ((dRow (n := n) wf).start (ix1 q) idx 0 + ((dRow (n := n) wf).window (ix1 q) 0 : ℕ)).toNat = r.val
        rw [row_start, row_window, heq]
        omega
  · rename_i h
    constructor
    · intro hh; cases hh
    · intro heq
      exfalso
      apply h
      intro a
      match a with
      | ⟨0, _⟩ =>
        show 0 ≤ (dRow (n := n) wf).start (ix1 q) idx 0 + ((dRow (n := n) wf).window (ix1 q) 0 : ℕ)
          ∧ (dRow (n := n) wf).start (ix1 q) idx 0 + ((dRow (n := n) wf).window (ix1 q) 0 : ℕ) < (n : ℤ)
        rw [row_start, row_window, heq]
        have := r.isLt
        omega

/-- A column update lands on (r, 0) exactly when its index word reads r. -/
theorem col_lands (wf) (idx : IVec ⟨2, ![e, 1]⟩ w) (q : Fin e) (r : Fin n) :
    (dCol (n := n) wf).resultIdx? (ix2 q (0 : Fin 1)) idx = some (ix2 r (0 : Fin 1))
      ↔ (idx (ix2 q (0 : Fin 1))).toInt = (r.val : Int) := by
  unfold ScatterDims.resultIdx?
  split
  · rename_i h
    rw [Option.some.injEq]
    have h0 := h 0
    rw [col_start0, col_window0] at h0
    constructor
    · intro heq
      have hv : ((dCol (n := n) wf).start (ix2 q (0 : Fin 1)) idx 0 + ((dCol (n := n) wf).window (ix2 q (0 : Fin 1)) 0 : ℕ)).toNat = r.val :=
        congrArg (fun f : (⟨2, ![n, 1]⟩ : Shape).Idx => (f 0).val) heq
      rw [col_start0, col_window0] at hv
      omega
    · intro heq
      funext a
      match a with
      | ⟨0, _⟩ =>
        apply Fin.ext
        show ((dCol (n := n) wf).start (ix2 q (0 : Fin 1)) idx 0 + ((dCol (n := n) wf).window (ix2 q (0 : Fin 1)) 0 : ℕ)).toNat = r.val
        rw [col_start0, col_window0, heq]
        omega
      | ⟨1, _⟩ =>
        apply Fin.ext
        show ((dCol (n := n) wf).start (ix2 q (0 : Fin 1)) idx 1 + ((dCol (n := n) wf).window (ix2 q (0 : Fin 1)) 1 : ℕ)).toNat = 0
        rw [col_start1, col_window1]
        rfl
  · rename_i h
    constructor
    · intro hh; cases hh
    · intro heq
      exfalso
      apply h
      intro a
      match a with
      | ⟨0, _⟩ =>
        show 0 ≤ (dCol (n := n) wf).start (ix2 q (0 : Fin 1)) idx 0 + ((dCol (n := n) wf).window (ix2 q (0 : Fin 1)) 0 : ℕ)
          ∧ (dCol (n := n) wf).start (ix2 q (0 : Fin 1)) idx 0 + ((dCol (n := n) wf).window (ix2 q (0 : Fin 1)) 0 : ℕ) < (n : ℤ)
        rw [col_start0, col_window0, heq]
        have := r.isLt
        omega
      | ⟨1, _⟩ =>
        show 0 ≤ (dCol (n := n) wf).start (ix2 q (0 : Fin 1)) idx 1 + ((dCol (n := n) wf).window (ix2 q (0 : Fin 1)) 1 : ℕ)
          ∧ (dCol (n := n) wf).start (ix2 q (0 : Fin 1)) idx 1 + ((dCol (n := n) wf).window (ix2 q (0 : Fin 1)) 1 : ℕ) < ((1 : ℕ) : ℤ)
        rw [col_start1, col_window1]
        omega

/-- The update indices [e] and [e, 1] correspond: q and (q, 0). -/
def liftIdx : (⟨1, ![e]⟩ : Shape).Idx ≃ (⟨2, ![e, 1]⟩ : Shape).Idx where
  toFun j := ix2 (j 0) (0 : Fin 1)
  invFun k := ix1 (k 0)
  left_inv j := (eq_ix1 j).symm
  right_inv k := by
    funext a
    match a with
    | ⟨0, _⟩ => rfl
    | ⟨1, _⟩ =>
      apply Fin.ext
      have h : (k 1).val < 1 := (k 1).isLt
      show 0 = (k 1).val
      omega

/-- An accumulating scatter of updates [e, 1] into a column [n, 1] and the same updates as [e] into a row-indexed [n],
    both reading the landing row off column 0 of one index array, agree entry by entry: update q lands on row r in one
    exactly when it does in the other, so the two sums run over corresponding index sets. No finiteness is used. -/
theorem scatterAdd_col_eq_row {φ : FTy}
    (d1 : ScatterDims ⟨1, ![n]⟩ ⟨2, ![e, 1]⟩ ⟨1, ![e]⟩) (d2 : ScatterDims ⟨2, ![n, 1]⟩ ⟨2, ![e, 1]⟩ ⟨2, ![e, 1]⟩)
    (wf1) (wf2) (h1 : d1 = ⟨[], [0], [0], 1, wf1⟩) (h2 : d2 = ⟨[1], [0], [0], 1, wf2⟩)
    (x1 : FVec Ideal ⟨1, ![n]⟩ φ) (x2 : FVec Ideal ⟨2, ![n, 1]⟩ φ) (idx : IVec ⟨2, ![e, 1]⟩ w)
    (u1 : FVec Ideal ⟨1, ![e]⟩ φ) (u2 : FVec Ideal ⟨2, ![e, 1]⟩ φ) (r : Fin n)
    (hx : x2 (ix2 r (0 : Fin 1)) = x1 (ix1 r)) (hu : ∀ q : Fin e, u2 (ix2 q (0 : Fin 1)) = u1 (ix1 q)) :
    Host.scatterAdd d2 x2 idx u2 (ix2 r (0 : Fin 1)) = Host.scatterAdd d1 x1 idx u1 (ix1 r) := by
  subst h1 h2
  show x2 (ix2 r (0 : Fin 1)) + _ = x1 (ix1 r) + _
  rw [hx]
  congr 1
  symm
  refine Finset.sum_equiv liftIdx (fun j => ?_) (fun j _ => ?_)
  · obtain ⟨q, rfl⟩ : ∃ q : Fin e, j = ix1 q := ⟨j 0, eq_ix1 j⟩
    rw [Finset.mem_filter, Finset.mem_filter]
    simp only [Finset.mem_univ, true_and]
    exact (row_lands wf1 idx q r).trans (col_lands wf2 idx q r).symm
  · obtain ⟨q, rfl⟩ : ∃ q : Fin e, j = ix1 q := ⟨j 0, eq_ix1 j⟩
    exact (hu q).symm

end Cert.LibCountScatter

end
-- ==== Proof.BridgeCount.lean ====
/-
  The two programs' divisors are one array.

  The kernel accumulates a one per edge into a length-100000 array, takes the maximum with one, and spreads the result
  first over a unit axis and then over the 128 columns; the reference accumulates ones of shape [1600000, 1] into a
  [100000, 1] column, takes the maximum with one, and spreads it over the columns. Entry (r, q) of either is
  max(number of edges whose destination word reads r, 1): the two accumulations agree entry by entry because an edge
  lands on row r in one exactly when it lands on (r, 0) in the other.
-/
import proofs.«132658_j120259084569_1_alg».proof.Proof.BridgeSum
import proofs.«132658_j120259084569_1_alg».proof.Proof.LibCountScatter
import Idealize.ShloMosaic.Lib.Pipeline.Value

noncomputable section

namespace Cert.Bridge

open Idealize.ShloMosaic Idealize.ShloMosaic.TcCoe Idealize.ShloMosaic.ValueIdx Cert.LibCountScatter
open Cert.KernelIdeal.HostVals Cert.ReferenceIdeal.Read

/-- The kernel's zero row, ones over the edges, and ones over the rows. -/
abbrev zerosRow : FVec Ideal Cert.KernelIdeal.S100000 .f32 :=
  broadcastInDim Cert.KernelIdeal.S100000 ![] Cert.KernelIdeal.Facts₀.bcast_S_S100000 (constant Cert.KernelIdeal.S_ .f32 0x00000000#32)
abbrev onesEdges : FVec Ideal Cert.KernelIdeal.S1600000 .f32 :=
  broadcastInDim Cert.KernelIdeal.S1600000 ![] Cert.KernelIdeal.Facts₀.bcast_S_S1600000 (constant Cert.KernelIdeal.S_ .f32 0x3F800000#32)
abbrev onesRow : FVec Ideal Cert.KernelIdeal.S100000 .f32 :=
  broadcastInDim Cert.KernelIdeal.S100000 ![] Cert.KernelIdeal.Facts₀.bcast_S_S100000 (constant Cert.KernelIdeal.S_ .f32 0x3F800000#32)

theorem zeros_eq (r : Fin 100000) : val_main_v15 (F := Ideal) (ix2 r (0 : Fin 1)) = zerosRow (ix1 r) :=
  (val_main_v15_apply (F := Ideal) _).trans rfl

theorem ones_eq (q : Fin 1600000) : val_main_v14 (F := Ideal) (ix2 q (0 : Fin 1)) = onesEdges (ix1 q) :=
  (val_main_v14_apply (F := Ideal) _).trans rfl

theorem onesRow_eq (r : Fin 100000) : onesRow (ix1 r) = val_main_v18 (F := Ideal) (ix2 r (0 : Fin 1)) :=
  ((val_main_v18_apply (F := Ideal) _).trans rfl).symm

theorem dstCol16_eq (x1 : IVec Cert.ReferenceIdeal.S2x1600000 32) : dstCol (row1 x1) = val_main_v16 (F := Ideal) x1 := by
  rw [row1_eq]; rfl

/-- The two accumulated counts agree at row r. -/
theorem count_eq (x1 : IVec Cert.ReferenceIdeal.S2x1600000 32) (r : Fin 100000) :
    Host.scatterAdd Cert.KernelIdeal.scatter_S100000_S1600000x1_S1600000_n_0_0_1 zerosRow (dstCol (row1 x1)) onesEdges (ix1 r)
      = val_main_v17 (F := Ideal) x1 (ix2 r (0 : Fin 1)) := by
  unfold val_main_v17
  rw [← dstCol16_eq x1]
  exact (scatterAdd_col_eq_row (n := 100000) (e := 1600000) (w := 32) (φ := .f32)
    Cert.KernelIdeal.scatter_S100000_S1600000x1_S1600000_n_0_0_1
    Cert.ReferenceIdeal.scatter_S100000x1_S1600000x1_S1600000x1_1_0_0_1
    Cert.KernelIdeal.scatter_S100000_S1600000x1_S1600000_n_0_0_1.wf
    Cert.ReferenceIdeal.scatter_S100000x1_S1600000x1_S1600000x1_1_0_0_1.wf rfl rfl
    zerosRow (val_main_v15 (F := Ideal)) (dstCol (row1 x1)) onesEdges (val_main_v14 (F := Ideal)) r
    (zeros_eq r) ones_eq).symm

end Cert.Bridge

end
-- ==== Proof.BridgeAgg.lean ====
/-
  The kernel's aggregate and the reference's aggregate are one array.

  With the sums by destination and the divisors each shown equal, the quotients are equal: for the input features
  (first layer) and for any later feature array (second layer, applied to the first layer's output).
-/
import proofs.«132658_j120259084569_1_alg».proof.Proof.BridgeCount

set_option maxRecDepth 16384

noncomputable section

namespace Cert.Bridge

open Idealize.ShloMosaic Idealize.ShloMosaic.TcCoe Idealize.ShloMosaic.ValueIdx
open Cert.KernelIdeal.HostVals Cert.ReferenceIdeal.Read

/-- The pointwise maximum read at an index, at any instance. -/
theorem maximumf_at {F : FTy → Type} [FloatOps F] {s : Shape} {φ : FTy} (a b : FVec F s φ) (i : s.Idx) :
    maximumf a b i = FloatOps.maximumf (a i) (b i) := rfl

/-- The kernel's count row at r: the accumulated count against one. -/
theorem countRow_apply (v3 : IVec Cert.KernelIdeal.S1600000 32) (r : Fin 100000) :
    countRow v3 (ix1 r)
      = FloatOps.maximumf (F := Ideal) (φ := .f32)
          (Host.scatterAdd Cert.KernelIdeal.scatter_S100000_S1600000x1_S1600000_n_0_0_1 zerosRow (dstCol v3) onesEdges (ix1 r))
          (onesRow (ix1 r)) := by
  unfold countRow
  exact maximumf_at _ _ _

/-- The kernel's divisor at (r, q) is its count row at r. -/
theorem countSpread_apply (v3 : IVec Cert.KernelIdeal.S1600000 32) (r : Fin 100000) (q : Fin 128) :
    countSpread v3 (ix2 r q) = countRow v3 (ix1 r) := by
  unfold countSpread
  generalize countRow v3 = y
  rw [broadcastInDim_apply _ Cert.KernelIdeal.Facts₀.bcast_S100000x1_S100000x128_0_1 _ (ix2 r q) (ix2 r (0 : Fin 1))
    (fun a => match a with
      | ⟨0, _⟩ => by show r.val = if (100000 : Nat) = 1 then 0 else r.val; rw [if_neg (by decide)]
      | ⟨1, _⟩ => by show 0 = if (1 : Nat) = 1 then 0 else q.val; rw [if_pos rfl])]
  exact broadcastInDim_apply _ Cert.KernelIdeal.Facts₀.bcast_S100000_S100000x1_0 y (ix2 r (0 : Fin 1)) (ix1 r)
    (fun a => match a with
      | ⟨0, _⟩ => by show r.val = if (100000 : Nat) = 1 then 0 else r.val; rw [if_neg (by decide)])

/-- The reference's divisor at (r, q): its accumulated column count at (r, 0) against one. -/
theorem v20_apply (x1 : IVec Cert.ReferenceIdeal.S2x1600000 32) (r : Fin 100000) (q : Fin 128) :
    val_main_v20 (F := Ideal) x1 (ix2 r q)
      = FloatOps.maximumf (F := Ideal) (φ := .f32) (val_main_v17 (F := Ideal) x1 (ix2 r (0 : Fin 1)))
          (val_main_v18 (F := Ideal) (ix2 r (0 : Fin 1))) := by
  have hidx : idx_main_v20 (ix2 r q) = ix2 r (0 : Fin 1) :=
    funext fun a => Fin.ext (by match a with | ⟨0, _⟩ => rfl | ⟨1, _⟩ => rfl)
  rw [val_main_v20_apply, val_main_v19_apply, hidx]

/-- The divisors agree entry by entry: max(count of row r, 1) at every column q. -/
theorem countSpread_eq (x1 : IVec Cert.ReferenceIdeal.S2x1600000 32) :
    countSpread (row1 x1) = val_main_v20 (F := Ideal) x1 := by
  funext i
  obtain ⟨r, q, rfl⟩ : ∃ (r : Fin 100000) (q : Fin 128), i = ix2 r q := ⟨i 0, i 1, eq_ix2 i⟩
  rw [countSpread_apply, countRow_apply, v20_apply, count_eq x1 r, onesRow_eq r]

/-- The kernel's aggregate of any feature array is the reference's sums over the reference's divisor. -/
theorem agg_eq (h : FVec Ideal Cert.ReferenceIdeal.S100000x128 .f32) (x1 : IVec Cert.ReferenceIdeal.S2x1600000 32) :
    agg h (row0 x1) (row1 x1) = Host.divf (refSummed h x1) (val_main_v20 (F := Ideal) x1) := by
  unfold agg
  rw [summed_eq, countSpread_eq]

/-- The first aggregates agree. -/
theorem agg1_eq (x0 : FVec Ideal Cert.ReferenceIdeal.S100000x128 .f32) (x1 : IVec Cert.ReferenceIdeal.S2x1600000 32) :
    agg x0 (row0 x1) (row1 x1) = val_main_v21 (F := Ideal) x0 x1 :=
  (agg_eq x0 x1).trans rfl

/-- The second aggregates agree, as functions of the reference's first layer. -/
theorem agg2_eq (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32)
    (x4 : FVec Ideal Cert.ReferenceIdeal.S128x128 .f32) :
    agg (val_main_v28 (F := Ideal) x0 x1 x2 x3 x4) (row0 x1) (row1 x1) = val_main_v46 (F := Ideal) x0 x1 x2 x3 x4 :=
  (agg_eq _ x1).trans rfl

end Cert.Bridge

end
-- ==== Proof.Spec.lean ====
/-
  What one layer computes, and what the whole program computes, as functions of arrays.

  A layer takes an aggregate matrix A and a feature matrix H (both [M, K]), two weight matrices Wl, Wr ([K, N]) and a
  bias b (length N), and returns the [M, N] matrix

      out[p, q] = (∑ k, A[p, k] · Wl[k, q] + b[q]) + ∑ k, H[p, k] · Wr[k, q],

  grouped exactly so; the first layer then takes the entrywise maximum with the zero word. Everything is over the
  extended reals; the two sums run over k = 0 … K−1 in that order on both sides of the certificate, so no law beyond
  reading each operation at an index is needed.
-/
import Idealize.ShloMosaic.Lib.ValueIdx
import Idealize.ShloMosaic.PureOps.Ideal

noncomputable section

namespace Cert.Spec

open Idealize.ShloMosaic Idealize.ShloMosaic.ValueIdx

/-- One layer's linear part at entry (p, q). -/
def combineAt {M K N : ℕ} (A H : (⟨2, ![M, K]⟩ : Shape).Idx → EReal) (Wl Wr : (⟨2, ![K, N]⟩ : Shape).Idx → EReal)
    (b : Fin N → EReal) (p : Fin M) (q : Fin N) : EReal :=
  ((∑ k : Fin K, A (ix2 p k) * Wl (ix2 k q)) + b q) + ∑ k : Fin K, H (ix2 p k) * Wr (ix2 k q)

/-- One layer's linear part as an [M, N] array. -/
def combine {M K N : ℕ} (A H : (⟨2, ![M, K]⟩ : Shape).Idx → EReal) (Wl Wr : (⟨2, ![K, N]⟩ : Shape).Idx → EReal)
    (b : Fin N → EReal) : (⟨2, ![M, N]⟩ : Shape).Idx → EReal :=
  fun i => combineAt A H Wl Wr b (i 0) (i 1)

/-- The zero word's value (never evaluated: the same word stands on both sides). -/
abbrev zeroWord : EReal := Ideal.ofBits .f32 0x00000000#32

/-- The first layer: the linear part, then the entrywise maximum with the zero word. -/
def combineRelu {M K N : ℕ} (A H : (⟨2, ![M, K]⟩ : Shape).Idx → EReal) (Wl Wr : (⟨2, ![K, N]⟩ : Shape).Idx → EReal)
    (b : Fin N → EReal) : (⟨2, ![M, N]⟩ : Shape).Idx → EReal :=
  fun i => max (combineAt A H Wl Wr b (i 0) (i 1)) zeroWord

theorem combine_ix2 {M K N : ℕ} (A H : (⟨2, ![M, K]⟩ : Shape).Idx → EReal) (Wl Wr : (⟨2, ![K, N]⟩ : Shape).Idx → EReal)
    (b : Fin N → EReal) (p : Fin M) (q : Fin N) : combine A H Wl Wr b (ix2 p q) = combineAt A H Wl Wr b p q := rfl

theorem combineRelu_ix2 {M K N : ℕ} (A H : (⟨2, ![M, K]⟩ : Shape).Idx → EReal) (Wl Wr : (⟨2, ![K, N]⟩ : Shape).Idx → EReal)
    (b : Fin N → EReal) (p : Fin M) (q : Fin N) :
    combineRelu A H Wl Wr b (ix2 p q) = max (combineAt A H Wl Wr b p q) zeroWord := rfl

end Cert.Spec

end
-- ==== Proof.RefSpec.lean ====
/-
  The reference's two layers, read entry by entry, are the layer function of its own aggregates.

  The reference computes each layer as a product with the left weights, plus the bias spread over the rows, plus a product
  with the right weights (and the maximum with the zero word after the first layer). Each product's entry (p, q) is the
  sum over k of the row-p entries against the column-q entries; the bias read at (p, q) is its entry q.
-/
import proofs.«132658_j120259084569_1_alg».proof.Proof.Gen.ReferenceIdeal.Read
import proofs.«132658_j120259084569_1_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

theorem lidx22 (p : Fin 100000) (q k : Fin 128) : lidx_main_v22 (ix2 p q) k = ix2 p k :=
  funext fun a => Fin.ext (by match a with | ⟨0, _⟩ => rfl | ⟨1, _⟩ => rfl)
theorem ridx22 (p : Fin 100000) (q k : Fin 128) : ridx_main_v22 (ix2 p q) k = ix2 k q :=
  funext fun a => Fin.ext (by match a with | ⟨0, _⟩ => rfl | ⟨1, _⟩ => rfl)
theorem lidx26 (p : Fin 100000) (q k : Fin 128) : lidx_main_v26 (ix2 p q) k = ix2 p k :=
  funext fun a => Fin.ext (by match a with | ⟨0, _⟩ => rfl | ⟨1, _⟩ => rfl)
theorem ridx26 (p : Fin 100000) (q k : Fin 128) : ridx_main_v26 (ix2 p q) k = ix2 k q :=
  funext fun a => Fin.ext (by match a with | ⟨0, _⟩ => rfl | ⟨1, _⟩ => rfl)
theorem bias24 (p : Fin 100000) (q : Fin 128) : idx_main_v23 (idx_main_v24 (ix2 p q)) = ix1 q :=
  funext fun a => Fin.ext (by match a with | ⟨0, _⟩ => rfl)

theorem lidx47 (p : Fin 100000) (q : Fin 64) (k : Fin 128) : lidx_main_v47 (ix2 p q) k = ix2 p k :=
  funext fun a => Fin.ext (by match a with | ⟨0, _⟩ => rfl | ⟨1, _⟩ => rfl)
theorem ridx47 (p : Fin 100000) (q : Fin 64) (k : Fin 128) : ridx_main_v47 (ix2 p q) k = ix2 k q :=
  funext fun a => Fin.ext (by match a with | ⟨0, _⟩ => rfl | ⟨1, _⟩ => rfl)
theorem lidx51 (p : Fin 100000) (q : Fin 64) (k : Fin 128) : lidx_main_v51 (ix2 p q) k = ix2 p k :=
  funext fun a => Fin.ext (by match a with | ⟨0, _⟩ => rfl | ⟨1, _⟩ => rfl)
theorem ridx51 (p : Fin 100000) (q : Fin 64) (k : Fin 128) : ridx_main_v51 (ix2 p q) k = ix2 k q :=
  funext fun a => Fin.ext (by match a with | ⟨0, _⟩ => rfl | ⟨1, _⟩ => rfl)
theorem bias49 (p : Fin 100000) (q : Fin 64) : idx_main_v48 (idx_main_v49 (ix2 p q)) = ix1 q :=
  funext fun a => Fin.ext (by match a with | ⟨0, _⟩ => rfl)

/-- The reference's first layer is the layer function, with the maximum, of its first aggregate. -/
theorem layer1_ref (x0 : S100000x128.Idx → EReal) (x1 : IVec S2x1600000 32) (x2 : S128x128.Idx → EReal) (x3 : S128.Idx → EReal)
    (x4 : S128x128.Idx → EReal) :
    val_main_v28 (F := Ideal) x0 x1 x2 x3 x4
      = combineRelu (M := 100000) (K := 128) (N := 128) (val_main_v21 (F := Ideal) x0 x1) x0 x2 x4 (fun e => x3 (ix1 e)) := by
  funext i
  obtain ⟨p, q, rfl⟩ : ∃ (p : Fin 100000) (q : Fin 128), i = ix2 p q := ⟨i 0, i 1, eq_ix2 i⟩
  rw [val_main_v28_apply, val_main_v27_apply, val_main_v25_apply, val_main_v22_apply, val_main_v26_apply,
    val_main_v24_apply, val_main_v23_apply, val_main_call0_v0_apply, val_main_call0_cst_apply, combineRelu_ix2]
  unfold combineAt
  simp only [lidx22, ridx22, lidx26, ridx26, bias24]
  rfl

/-- The reference's second layer is the layer function of its second aggregate and its first layer. -/
theorem layer2_ref (x0 : S100000x128.Idx → EReal) (x1 : IVec S2x1600000 32) (x2 : S128x128.Idx → EReal) (x3 : S128.Idx → EReal)
    (x4 : S128x128.Idx → EReal) (x5 : S128x64.Idx → EReal) (x6 : S64.Idx → EReal) (x7 : S128x64.Idx → EReal) :
    val_main_v52 (F := Ideal) x0 x1 x2 x3 x4 x5 x6 x7
      = combine (M := 100000) (K := 128) (N := 64) (val_main_v46 (F := Ideal) x0 x1 x2 x3 x4)
          (val_main_v28 (F := Ideal) x0 x1 x2 x3 x4) x5 x7 (fun e => x6 (ix1 e)) := by
  funext i
  obtain ⟨p, q, rfl⟩ : ∃ (p : Fin 100000) (q : Fin 64), i = ix2 p q := ⟨i 0, i 1, eq_ix2 i⟩
  rw [val_main_v52_apply, val_main_v50_apply, val_main_v47_apply, val_main_v51_apply, val_main_v49_apply,
    val_main_v48_apply, combine_ix2]
  unfold combineAt
  simp only [lidx47, ridx47, lidx51, ridx51, bias49]
  rfl

end Cert.ReferenceIdeal.RefValue

end
-- ==== Proof.KernelRun.lean ====
/-
  The idealized kernel's run with its result buffer named.

  @main is four segments: the host operations before the first launch, the first pipelined region, the host
  operations between the launches, the second region. Every weakly fair execution runs them in order, and at each
  boundary every unscoped buffer holds a known valuation: the launch memory, then the host operations' results over
  it, then the first region's arrays at what its write-backs leave, and so on. The last valuation gives the result
  buffer (the second region's output array after its twenty write-backs) and shows every argument array unchanged.
-/
import proofs.«132658_j120259084569_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    valuation of it, and the eight argument arrays end as launched. -/
theorem run_out : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunOut

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibRowReads.lean ====
/-
  Three reads of a dense layer's vector operations at one entry, on the extended reals, for any extents.

  * `bias_row_apply`: a `[1, b]` bias row, recast to its own shape and spread over `a` rows, reads at `(r, e)` its one
    row at `e`.
  * `product_apply`: a plain `[M, K] × [K, N]` matrix product into the zero accumulator whose right operand is a weight
    block recast to its own shape reads at `(r, e)` the sum `∑ k, X[r, k] · W[k, e]` (any dimension record equal to
    the plain one, any operand formats: a change of float format is the identity here).
  * `two_columns_apply`: two `[a, 1]` columns set side by side into `[a, 2]` read at `(r, k)` the first column's row `r`
    for `k = 0` and the second's for `k = 1`.
  Built on this directory's `matmul_plain_zero_apply` (LibPlainMatmul.lean).
-/
import proofs.«132658_j120259084569_1_alg».proof.Proof.LibPlainMatmul
import Idealize.ShloMosaic.Lib.Pipeline.Value
import Idealize.ShloMosaic.Lib.ValueLayout

noncomputable section

open scoped BigOperators

namespace Cert.LibRowReads

open Idealize.ShloMosaic Idealize.ShloMosaic.ValueIdx

/-- A `[1, b]` bias row, recast to its own shape and spread over `a` rows, reads its one row. -/
theorem bias_row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (r : Fin a) (e : Fin b) :
    broadcastTo ⟨2, ![a, b]⟩ (shapeCast ⟨2, ![1, b]⟩ v h1) h2 (ix2 r e) = v (ix2 (0 : Fin 1) e) :=
  (broadcastTo_1b_ab_apply _ h2 r e).trans (congrFun (shapeCast_self v h1) _)

/-- A plain product of an `[M, K]` block with a `[K, N]` weight block (recast to its own shape) into the zero
    accumulator: entry `(r, e)` is `∑ k, X[r, k] · W[k, e]`. -/
theorem product_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (h : (⟨2, ![K, N]⟩ : Shape).ShapeCasts ⟨2, ![K, N]⟩) (r : Fin M) (e : Fin N) :
    FloatOps.matmul d none X (shapeCast ⟨2, ![K, N]⟩ W h) (constant ⟨2, ![M, N]⟩ .f32 0x00000000#32) (ix2 r e)
      = ∑ k : Fin K, X (ix2 r k) * W (ix2 k e) := by
  rw [shapeCast_self W h]
  exact matmul_plain_zero_apply d hd none X W r e

/-- Two `[a, 1]` columns set side by side: entry `(r, k)` of the `[a, 2]` result is the first column's entry of row `r`
    for `k = 0` and the second's for `k = 1`. -/
theorem two_columns_apply {a : ℕ} (X Y : (⟨2, ![a, 1]⟩ : Shape).Idx → EReal)
    (h : Shape.Concatenates [(⟨2, ![a, 1]⟩ : Shape), (⟨2, ![a, 1]⟩ : Shape)] (⟨2, ![a, 2]⟩ : Shape) (1 : Fin 2)) (r : Fin a) (k : Fin 2) :
    concatenate (⟨2, ![a, 2]⟩ : Shape) (1 : Fin 2) [⟨(⟨2, ![a, 1]⟩ : Shape), X⟩, ⟨(⟨2, ![a, 1]⟩ : Shape), Y⟩] h (ix2 r k)
      = if k.val = 0 then X (ix2 r (0 : Fin 1)) else Y (ix2 r (0 : Fin 1)) := by
  match k with
  | ⟨0, _⟩ =>
    rw [if_pos rfl]
    exact concatenate_pair_apply_left (1 : Fin 2) X Y h (ix2 r (⟨0, by decide⟩ : Fin 2)) rfl (ix2 r (0 : Fin 1))
      (fun b => match b with | ⟨0, _⟩ => rfl | ⟨1, _⟩ => rfl)
  | ⟨1, _⟩ =>
    rw [if_neg Nat.one_ne_zero]
    exact concatenate_pair_apply_right (1 : Fin 2) X Y h (ix2 r (⟨1, by decide⟩ : Fin 2)) rfl rfl (ix2 r (0 : Fin 1))
      (fun b hb => match b, hb with | ⟨0, _⟩, _ => rfl | ⟨1, _⟩, hb => absurd rfl hb) rfl

end Cert.LibRowReads

end
-- ==== Proof.KernelPayload.lean ====
/-
  The two kernel bodies' stored values at an entry.

  Each body loads an aggregate block and a feature block (5000 rows each), two weight matrices and a bias row, and stores
  (agg · Wl + bias) + h · Wr, the first body followed by the maximum with the zero word. Read at entry (p, q): a change
  of float format and a cast of a block to its own shape are the identity, each product into the zero accumulator is
  the sum over the 128 contracted positions, and the bias row spread over the rows reads its entry q.
-/
import proofs.«132658_j120259084569_1_alg».proof.Proof.Gen.KernelIdeal.Skeleton
import proofs.«132658_j120259084569_1_alg».proof.Proof.LibRowReads
import proofs.«132658_j120259084569_1_alg».proof.Proof.Spec
import Idealize.ShloMosaic.Lib.Pipeline.Value

noncomputable section

namespace Cert.KernelIdeal.Payload

open Cert.KernelIdeal Cert.KernelIdeal.Gen Idealize.ShloMosaic Idealize.ShloMosaic.ValueIdx Cert.Spec Cert.LibRowReads

/-- The first body's stored block at (p, q): the layer's linear part of the loaded blocks, then max with the zero word. -/
theorem pay0_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (combineAt x0 x1 x2 x4 (fun e => x3 (ix2 (0 : Fin 1) e)) p q) zeroWord := by
  have e1 := matmul_plain_zero_apply (φ₁ := .bf16) (φ₂ := .bf16) dot_S5000x128_S128x128_S5000x128_1_0_0_1_n_n rfl none
    (truncf .bf16 (shapeCast S5000x128 x0 shapeCasts_S5000x128_S5000x128) bitsLt_bf16_f32) (truncf .bf16 x2 bitsLt_bf16_f32) p q
  have e2 := matmul_plain_zero_apply (φ₁ := .bf16) (φ₂ := .bf16) dot_S5000x128_S128x128_S5000x128_1_0_0_1_n_n rfl none
    (truncf .bf16 x1 bitsLt_bf16_f32) (truncf .bf16 x4 bitsLt_bf16_f32) p q
  have e3 := bias_row_apply (a := 5000) x3 shapeCasts_S1x128_S1x128 broadcasts_S1x128_S5000x128 p q
  have e1' := e1.trans (congrArg (fun v : S5000x128.Idx → EReal => ∑ k : Fin 128, v (ix2 p k) * x2 (ix2 k q))
    (shapeCast_self x0 shapeCasts_S5000x128_S5000x128))
  unfold k0_pay1 combineAt
  exact congrArg₂ max (congrArg₂ (· + ·) (congrArg₂ (· + ·) e1' e3) e2) rfl

/-- The second body's stored block at (p, q): the layer's linear part of the loaded blocks. -/
theorem pay1_apply (x0 x1 : Vec Ideal S5000x128 .f32) (x2 x4 : Vec Ideal S128x64 .f32) (x3 : Vec Ideal S1x64 .f32)
    (p : Fin 5000) (q : Fin 64) :
    k1_pay1 (F := Ideal) x0 x1 x2 x4 x3 (ix2 p q)
      = combineAt x0 x1 x2 x4 (fun e => x3 (ix2 (0 : Fin 1) e)) p q := by
  have e1 := matmul_plain_zero_apply (φ₁ := .bf16) (φ₂ := .bf16) dot_S5000x128_S128x64_S5000x64_1_0_0_1_n_n rfl none
    (truncf .bf16 (shapeCast S5000x128 x0 shapeCasts_S5000x128_S5000x128) bitsLt_bf16_f32) (truncf .bf16 x2 bitsLt_bf16_f32) p q
  have e2 := matmul_plain_zero_apply (φ₁ := .bf16) (φ₂ := .bf16) dot_S5000x128_S128x64_S5000x64_1_0_0_1_n_n rfl none
    (truncf .bf16 (shapeCast S5000x128 x1 shapeCasts_S5000x128_S5000x128) bitsLt_bf16_f32) (truncf .bf16 x4 bitsLt_bf16_f32) p q
  have e3 := bias_row_apply (a := 5000) x3 shapeCasts_S1x64_S1x64 broadcasts_S1x64_S5000x64 p q
  have e1' := e1.trans (congrArg (fun v : S5000x128.Idx → EReal => ∑ k : Fin 128, v (ix2 p k) * x2 (ix2 k q))
    (shapeCast_self x0 shapeCasts_S5000x128_S5000x128))
  have e2' := e2.trans (congrArg (fun v : S5000x128.Idx → EReal => ∑ k : Fin 128, v (ix2 p k) * x4 (ix2 k q))
    (shapeCast_self x1 shapeCasts_S5000x128_S5000x128))
  unfold k1_pay1 combineAt
  exact congrArg₂ (· + ·) (congrArg₂ (· + ·) e1' e3) e2'

end Cert.KernelIdeal.Payload

end
-- ==== Proof.KernelLayers.lean ====
/-
  Each region's output array after its twenty write-backs, as one function of the arrays the region is entered with.

  Grid point t of a region stages rows 5000·t … 5000·t + 4999 of the aggregate and feature arrays, the whole weight
  matrices and the bias row, and writes back rows 5000·t … 5000·t + 4999 of the output. So what point t writes back is
  the layer's function of the WHOLE arrays, read through that block of rows; the twenty blocks tile the 100000 rows,
  and the array ends holding the layer's function everywhere.
-/
import proofs.«132658_j120259084569_1_alg».proof.Proof.Gen.KernelIdeal.Frame
import proofs.«132658_j120259084569_1_alg».proof.Proof.KernelPayload
import Idealize.ShloMosaic.Lib.Pipeline.Value

set_option maxRecDepth 16384

noncomputable section

namespace Cert.KernelIdeal.Layers

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The first region's index maps over the grid: the three row-blocked windows sit at block row t, column block 0; the
    weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first layer's function of the arrays region 0 is entered with. -/
def G0 (c : Dev nD) : S100000x128.Idx → EReal :=
  combineRelu (M := 100000) (K := 128) (N := 128) (V c main_v22) (V c main_arg0) (V c main_arg2) (V c main_arg4)
    (fun e => V c main_v23 (ix2 (0 : Fin 1) e))

/-- One block of the first layer: if the staged blocks are rows tv·5000 … of the aggregate and feature arrays and the
    whole weights and bias, the stored block's entry y is the first layer's function at the array index i with
    i₀ = tv·5000 + y₀, i₁ = y₁. -/
theorem block0 (A H : S100000x128.Idx → EReal) (Wl Wr : S128x128.Idx → EReal) (b : S1x128.Idx → EReal)
    (x0 x1 : Vec Ideal S5000x128 .f32) (x2 x4 : Vec Ideal S128x128 .f32) (x3 : Vec Ideal S1x128 .f32)
    (tv : ℕ) (ht : tv < 20)
    (h0 : ∀ (p : Fin 5000) (k : Fin 128), x0 (ix2 p k) = A (ix2 (⟨tv * 5000 + p.val, by have := p.isLt; omega⟩ : Fin 100000) k))
    (h1 : ∀ (p : Fin 5000) (k : Fin 128), x1 (ix2 p k) = H (ix2 (⟨tv * 5000 + p.val, by have := p.isLt; omega⟩ : Fin 100000) k))
    (h2 : x2 = Wl) (h4 : x4 = Wr) (h3 : x3 = b)
    (y : S5000x128.Idx) (i : S100000x128.Idx) (hi0 : (i 0).val = tv * 5000 + (y 0).val) (hi1 : (i 1).val = (y 1).val) :
    k0_pay1 (F := Ideal) x0 x1 x2 x4 x3 y
      = combineRelu (M := 100000) (K := 128) (N := 128) A H Wl Wr (fun e => b (ix2 (0 : Fin 1) e)) i := by
  obtain ⟨p, q, rfl⟩ : ∃ (p : Fin 5000) (q : Fin 128), y = ix2 p q := ⟨y 0, y 1, eq_ix2 y⟩
  have hb : tv * 5000 + p.val < 100000 := by have := p.isLt; omega
  obtain ⟨i0, i1, rfl⟩ : ∃ (i0 : Fin 100000) (i1 : Fin 128), i = ix2 i0 i1 := ⟨i 0, i 1, eq_ix2 i⟩
  have e0 : i0 = ⟨tv * 5000 + p.val, hb⟩ := Fin.ext hi0
  have e1 : i1 = q := Fin.ext hi1
  rw [e0, e1, pay0_apply, combineRelu_ix2, ← h2, ← h4, ← h3]
  unfold combineAt
  simp only [h0, h1]

/-- What point t of region 0 writes back is block t of the first layer's function. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨a00, a01, a10, a11, a20, a21, a30, a31, a40, a41, a50, a51⟩ := idx0 t
  have htN : t.val < 20 := lt_of_lt_of_eq t.isLt N_0
  funext j
  show k0_pay1 (F := Ideal) (iblk0 V c 0 t) (iblk0 V c 1 t) (iblk0 V c 2 t) (iblk0 V c 4 t) (iblk0 V c 3 t) j
    = G0 V c (((cfg0.win 5).blk t).view.emb j)
  unfold G0
  refine block0 (V c main_v22) (V c main_arg0) (V c main_arg2) (V c main_arg4) (V c main_v23)
    (iblk0 V c 0 t) (iblk0 V c 1 t) (iblk0 V c 2 t) (iblk0 V c 4 t) (iblk0 V c 3 t) t.val htN ?_ ?_ ?_ ?_ ?_ j
    (((cfg0.win 5).blk t).view.emb j) ?_ ?_
  · intro p k
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = t.val * 5000 + p.val; rw [a00]; omega
    | ⟨1, _⟩ => show win0_0.index t (1 : Fin 2) * 128 + 1 * k.val = k.val; rw [a01]; omega
  · intro p k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; rw [a10]; omega
    | ⟨1, _⟩ => show win0_1.index t (1 : Fin 2) * 128 + 1 * k.val = k.val; rw [a11]; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; rw [a20]; omega
    | ⟨1, _⟩ => show win0_2.index t (1 : Fin 2) * 128 + 1 * (y 1).val = (y 1).val; rw [a21]; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; rw [a40]; omega
    | ⟨1, _⟩ => show win0_4.index t (1 : Fin 2) * 128 + 1 * (y 1).val = (y 1).val; rw [a41]; omega
  · funext y
    show V c main_v23 (((cfg0.win 3).blk t).view.emb y) = V c main_v23 y
    refine congrArg (V c main_v23) (funext fun a => Fin.ext ?_)
    match a with
    | ⟨0, _⟩ => show win0_3.index t (0 : Fin 2) * 1 + 1 * (y 0).val = (y 0).val; rw [a30]; omega
    | ⟨1, _⟩ => show win0_3.index t (1 : Fin 2) * 128 + 1 * (y 1).val = (y 1).val; rw [a31]; omega
  · show win0_5.index t (0 : Fin 2) * 5000 + 1 * (j 0).val = t.val * 5000 + (j 0).val; rw [a50]; omega
  · show win0_5.index t (1 : Fin 2) * 128 + 1 * (j 1).val = (j 1).val; rw [a51]; omega

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Row r of the output lies in the block of point r / 5000: the twenty blocks tile the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨a00, a01, a10, a11, a20, a21, a30, a31, a40, a41, a50, a51⟩ := idx0 t
  have ht : t.val = (i 0).val / 5000 := rfl
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [a50, ht]; omega
  | ⟨1, _⟩ =>
    show win0_5.index t (1 : Fin 2) * 128 ≤ (i 1).val ∧ (i 1).val < win0_5.index t (1 : Fin 2) * 128 + 128
    rw [a51]; omega

/-- Region 0's output array after its run is the first layer's function of the arrays the region is entered with. -/
theorem final0 (c : Dev nD) : (dat0 (F := Ideal) V c).arrAt 5 cfg0.N = G0 V c :=
  (dat0 (F := Ideal) V c).arrAt_eq_of_cover 5 (G0 V c) (fun t _ => flushed0_eq V c t) cover0

/-! ## Region 1 -/

/-- The second region's index maps over the grid: as the first region's. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The second layer's function of the arrays region 1 is entered with. -/
def G1 (c : Dev nD) : S100000x64.Idx → EReal :=
  combine (M := 100000) (K := 128) (N := 64) (V c main_v43) (V c main_v24) (V c main_arg5) (V c main_arg7)
    (fun e => V c main_v44 (ix2 (0 : Fin 1) e))

/-- One block of the second layer: if the staged blocks are rows tv·5000 … of the aggregate and feature arrays and the
    whole weights and bias, the stored block's entry y is the second layer's function at the array index i with
    i₀ = tv·5000 + y₀, i₁ = y₁. -/
theorem block1 (A H : S100000x128.Idx → EReal) (Wl Wr : S128x64.Idx → EReal) (b : S1x64.Idx → EReal)
    (x0 x1 : Vec Ideal S5000x128 .f32) (x2 x4 : Vec Ideal S128x64 .f32) (x3 : Vec Ideal S1x64 .f32)
    (tv : ℕ) (ht : tv < 20)
    (h0 : ∀ (p : Fin 5000) (k : Fin 128), x0 (ix2 p k) = A (ix2 (⟨tv * 5000 + p.val, by have := p.isLt; omega⟩ : Fin 100000) k))
    (h1 : ∀ (p : Fin 5000) (k : Fin 128), x1 (ix2 p k) = H (ix2 (⟨tv * 5000 + p.val, by have := p.isLt; omega⟩ : Fin 100000) k))
    (h2 : x2 = Wl) (h4 : x4 = Wr) (h3 : x3 = b)
    (y : S5000x64.Idx) (i : S100000x64.Idx) (hi0 : (i 0).val = tv * 5000 + (y 0).val) (hi1 : (i 1).val = (y 1).val) :
    k1_pay1 (F := Ideal) x0 x1 x2 x4 x3 y
      = combine (M := 100000) (K := 128) (N := 64) A H Wl Wr (fun e => b (ix2 (0 : Fin 1) e)) i := by
  obtain ⟨p, q, rfl⟩ : ∃ (p : Fin 5000) (q : Fin 64), y = ix2 p q := ⟨y 0, y 1, eq_ix2 y⟩
  have hb : tv * 5000 + p.val < 100000 := by have := p.isLt; omega
  obtain ⟨i0, i1, rfl⟩ : ∃ (i0 : Fin 100000) (i1 : Fin 64), i = ix2 i0 i1 := ⟨i 0, i 1, eq_ix2 i⟩
  have e0 : i0 = ⟨tv * 5000 + p.val, hb⟩ := Fin.ext hi0
  have e1 : i1 = q := Fin.ext hi1
  rw [e0, e1, pay1_apply, combine_ix2, ← h2, ← h4, ← h3]
  unfold combineAt
  simp only [h0, h1]

/-- What point t of region 1 writes back is block t of the second layer's function. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨a00, a01, a10, a11, a20, a21, a30, a31, a40, a41, a50, a51⟩ := idx1 t
  have htN : t.val < 20 := lt_of_lt_of_eq t.isLt N_1
  funext j
  show k1_pay1 (F := Ideal) (iblk1 V c 0 t) (iblk1 V c 1 t) (iblk1 V c 2 t) (iblk1 V c 4 t) (iblk1 V c 3 t) j
    = G1 V c (((cfg1.win 5).blk t).view.emb j)
  unfold G1
  refine block1 (V c main_v43) (V c main_v24) (V c main_arg5) (V c main_arg7) (V c main_v44)
    (iblk1 V c 0 t) (iblk1 V c 1 t) (iblk1 V c 2 t) (iblk1 V c 4 t) (iblk1 V c 3 t) t.val htN ?_ ?_ ?_ ?_ ?_ j
    (((cfg1.win 5).blk t).view.emb j) ?_ ?_
  · intro p k
    show V c main_v43 (((cfg1.win 0).blk t).view.emb (ix2 p k)) = _
    refine congrArg (V c main_v43) (funext fun a => Fin.ext ?_)
    match a with
    | ⟨0, _⟩ => show win1_0.index t (0 : Fin 2) * 5000 + 1 * p.val = t.val * 5000 + p.val; rw [a00]; omega
    | ⟨1, _⟩ => show win1_0.index t (1 : Fin 2) * 128 + 1 * k.val = k.val; rw [a01]; omega
  · intro p k
    show V c main_v24 (((cfg1.win 1).blk t).view.emb (ix2 p k)) = _
    refine congrArg (V c main_v24) (funext fun a => Fin.ext ?_)
    match a with
    | ⟨0, _⟩ => show win1_1.index t (0 : Fin 2) * 5000 + 1 * p.val = t.val * 5000 + p.val; rw [a10]; omega
    | ⟨1, _⟩ => show win1_1.index t (1 : Fin 2) * 128 + 1 * k.val = k.val; rw [a11]; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; rw [a20]; omega
    | ⟨1, _⟩ => show win1_2.index t (1 : Fin 2) * 64 + 1 * (y 1).val = (y 1).val; rw [a21]; omega
  · funext y
    show V c main_arg7 (((cfg1.win 4).blk t).view.emb y) = V c main_arg7 y
    refine congrArg (V c main_arg7) (funext fun a => Fin.ext ?_)
    match a with
    | ⟨0, _⟩ => show win1_4.index t (0 : Fin 2) * 128 + 1 * (y 0).val = (y 0).val; rw [a40]; omega
    | ⟨1, _⟩ => show win1_4.index t (1 : Fin 2) * 64 + 1 * (y 1).val = (y 1).val; rw [a41]; omega
  · funext y
    show V c main_v44 (((cfg1.win 3).blk t).view.emb y) = V c main_v44 y
    refine congrArg (V c main_v44) (funext fun a => Fin.ext ?_)
    match a with
    | ⟨0, _⟩ => show win1_3.index t (0 : Fin 2) * 1 + 1 * (y 0).val = (y 0).val; rw [a30]; omega
    | ⟨1, _⟩ => show win1_3.index t (1 : Fin 2) * 64 + 1 * (y 1).val = (y 1).val; rw [a31]; omega
  · show win1_5.index t (0 : Fin 2) * 5000 + 1 * (j 0).val = t.val * 5000 + (j 0).val; rw [a50]; omega
  · show win1_5.index t (1 : Fin 2) * 64 + 1 * (j 1).val = (j 1).val; rw [a51]; omega

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- Row r of the output lies in the block of point r / 5000: the twenty blocks tile the array. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨a00, a01, a10, a11, a20, a21, a30, a31, a40, a41, a50, a51⟩ := idx1 t
  have ht : t.val = (i 0).val / 5000 := rfl
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [a50, ht]; omega
  | ⟨1, _⟩ =>
    show win1_5.index t (1 : Fin 2) * 64 ≤ (i 1).val ∧ (i 1).val < win1_5.index t (1 : Fin 2) * 64 + 64
    rw [a51]; omega

/-- Region 1's output array after its run is the second layer's function of the arrays the region is entered with. -/
theorem final1 (c : Dev nD) : (dat1 (F := Ideal) V c).arrAt 5 cfg1.N = G1 V c :=
  (dat1 (F := Ideal) V c).arrAt_eq_of_cover 5 (G1 V c) (fun t _ => flushed1_eq V c t) cover1

end Cert.KernelIdeal.Layers

end
-- ==== Proof.KernelValue.lean ====
/-
  The idealized kernel's result as one function of the eight argument arrays.

  The first layer's output is the layer function, with the maximum, of the mean aggregate of x, x itself, the first
  weights and the first bias; the result is the layer function of the mean aggregate of that output, that output, the
  second weights and the second bias. Each region's output array is its layer's function of the arrays the region is
  entered with; those arrays are read back through the host operations to the arguments (a bias of length N recast to
  [1, N] reads at (0, e) its entry e).
-/
import proofs.«132658_j120259084569_1_alg».proof.Proof.KernelRun
import proofs.«132658_j120259084569_1_alg».proof.Proof.KernelLayers
import proofs.«132658_j120259084569_1_alg».proof.Proof.KernelHost
import Idealize.ShloMosaic.Lib.ValueLayout

set_option maxRecDepth 16384

noncomputable section

namespace Cert.KernelIdeal.KValue

open Cert.KernelIdeal Cert.KernelIdeal.Gen Cert.KernelIdeal.HostVals Cert.KernelIdeal.Layers Cert.Spec
open Idealize.ShloMosaic Idealize.ShloMosaic.TcCoe Idealize.ShloMosaic.ValueIdx Idealize.SL.Sem

/-- The first layer's output as a function of x, the edges, the first weights and the first bias. -/
def firstLayer (x0 : S100000x128.Idx → EReal) (x1 : IVec S2x1600000 32) (x2 : S128x128.Idx → EReal) (x3 : S128.Idx → EReal)
    (x4 : S128x128.Idx → EReal) : S100000x128.Idx → EReal :=
  combineRelu (M := 100000) (K := 128) (N := 128) (agg x0 (row0 x1) (row1 x1)) x0 x2 x4 (fun e => x3 (ix1 e))

/-- The result as a function of the eight arguments. -/
def out (x0 : S100000x128.Idx → EReal) (x1 : IVec S2x1600000 32) (x2 : S128x128.Idx → EReal) (x3 : S128.Idx → EReal)
    (x4 : S128x128.Idx → EReal) (x5 : S128x64.Idx → EReal) (x6 : S64.Idx → EReal) (x7 : S128x64.Idx → EReal) :
    S100000x64.Idx → EReal :=
  combine (M := 100000) (K := 128) (N := 64) (agg (firstLayer x0 x1 x2 x3 x4) (row0 x1) (row1 x1))
    (firstLayer x0 x1 x2 x3 x4) x5 x7 (fun e => x6 (ix1 e))

variable (m : (ℓ : Loc nD τ sig) → Buf (Elt Ideal) ℓ) (ρ : Dev nD → PrngReg)

/-- After the first region its output array holds the first layer's function of the arguments. -/
theorem W2_v24 (c : Dev nD) :
    W2 (F := Ideal) m ρ c (Proc.devRef .tc main_v24)
      = firstLayer (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ?_
  rw [final0]
  unfold G0 firstLayer
  rw [V1_v22, V1_arg0, V1_arg2, V1_arg4, V1_v23]
  simp only [shapeCast_a_1a_apply]

/-- After the second region the result buffer holds the result function of the arguments. -/
theorem value (c : Dev nD) :
    W4 (F := Ideal) m ρ c (Proc.devRef .tc main_v45)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ?_
  rw [final1]
  unfold G1 out
  rw [V3_v43, V3_v24, V3_arg5, V3_arg7, V3_v44, W2_v24]
  simp only [shapeCast_a_1a_apply]

/-- Every weakly fair execution of the idealized kernel terminates without a fault, the result buffer holding the
    result function of the arguments as launched and the arguments unchanged. -/
theorem run : θ_run defs (onTc (τ := τ) (main (F := Ideal))) ⟨m, fun _ => 0, ρ⟩ (fun r => ∀ c : Dev nD,
      r.2.mem ((c.tc : Thread nD τ).loc main_v45)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.KernelIdeal.RunOut.run_out m ρ)

end Cert.KernelIdeal.KValue

end
-- ==== Proof.Equal.lean ====
/-
  The reference's result and the kernel's result are one function of the arguments.

  The reference's second layer is the layer function of its second aggregate and its first layer; its first layer is the
  layer function, with the maximum, of its first aggregate. Each aggregate is the kernel's aggregate of the same feature
  array, so the reference's first layer is the kernel's first layer, and then the results agree.
-/
import proofs.«132658_j120259084569_1_alg».proof.Proof.BridgeAgg
import proofs.«132658_j120259084569_1_alg».proof.Proof.RefSpec
import proofs.«132658_j120259084569_1_alg».proof.Proof.KernelValue

noncomputable section

namespace Cert.Equal

open Idealize.ShloMosaic Idealize.ShloMosaic.ValueIdx Cert.Spec Cert.Bridge
open Cert.ReferenceIdeal.Read Cert.ReferenceIdeal.RefValue Cert.KernelIdeal.KValue Cert.KernelIdeal.HostVals

/-- The reference's first layer is the kernel's first layer. -/
theorem first_eq (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32)
    (x4 : FVec Ideal Cert.ReferenceIdeal.S128x128 .f32) :
    val_main_v28 (F := Ideal) x0 x1 x2 x3 x4 = firstLayer x0 x1 x2 x3 x4 := by
  rw [layer1_ref, ← agg1_eq]
  rfl

/-- The reference's result is the kernel's result function of the same arguments. -/
theorem result_eq (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32)
    (x4 : FVec Ideal Cert.ReferenceIdeal.S128x128 .f32) (x5 : FVec Ideal Cert.ReferenceIdeal.S128x64 .f32)
    (x6 : FVec Ideal Cert.ReferenceIdeal.S64 .f32) (x7 : FVec Ideal Cert.ReferenceIdeal.S128x64 .f32) :
    val_main_v52 (F := Ideal) x0 x1 x2 x3 x4 x5 x6 x7 = out x0 x1 x2 x3 x4 x5 x6 x7 := by
  rw [layer2_ref, ← agg2_eq, first_eq]
  rfl

end Cert.Equal

end
-- ==== Proof.lean ====
/-
  Two stacked mean-aggregation layers: a pipelined kernel against its array-level reference, on the extended reals.

  Each layer forms the mean aggregate A of its input features H over the edges (rows H[src] summed by destination and
  divided by max(count, 1)) and returns (A · Wl + b) + H · Wr; the first layer is followed by the maximum with zero.
  The kernel computes the aggregates with the same host operations as the reference — except that it counts the edges
  into a length-100000 array and adds the unit axis afterwards, where the reference counts into a [100000, 1] column —
  and computes each layer's products, bias and sum in a pipelined region over twenty blocks of 5000 rows.

  At the exact instance the two agree entry by entry: a block of rows of the layer function is the layer function's rows
  (the twenty blocks tile the array), a product into the zero accumulator is the sum over the contracted axis, a change
  of float format is the identity, and the two counts are the same number of edges per row. No finiteness of the inputs
  is needed: only re-indexing of finite sums and reading each operation at an index are used. The three frames are the
  generated frame certificates (the reference's its generated run with the result dropped); the idealization rewrote
  no operation, so there is nothing to preserve.
-/
import proofs.«132658_j120259084569_1_alg».proof.Defs
import proofs.«132658_j120259084569_1_alg».proof.Proof.Gen.Kernel
import proofs.«132658_j120259084569_1_alg».proof.Proof.Gen.Kernel.Skeleton
import proofs.«132658_j120259084569_1_alg».proof.Proof.Gen.Kernel.Launch
import proofs.«132658_j120259084569_1_alg».proof.Proof.Gen.Kernel.Points
import proofs.«132658_j120259084569_1_alg».proof.Proof.Gen.Kernel.Frame
import proofs.«132658_j120259084569_1_alg».proof.Proof.Gen.KernelIdeal
import proofs.«132658_j120259084569_1_alg».proof.Proof.Gen.KernelIdeal.Skeleton
import proofs.«132658_j120259084569_1_alg».proof.Proof.Gen.KernelIdeal.Launch
import proofs.«132658_j120259084569_1_alg».proof.Proof.Gen.KernelIdeal.Points
import proofs.«132658_j120259084569_1_alg».proof.Proof.Gen.KernelIdeal.Frame
import proofs.«132658_j120259084569_1_alg».proof.Proof.Gen.ReferenceIdeal
import proofs.«132658_j120259084569_1_alg».proof.Proof.Gen.ReferenceIdeal.Run
import proofs.«132658_j120259084569_1_alg».proof.Proof.Gen.ReferenceIdeal.Read
import proofs.«132658_j120259084569_1_alg».proof.Proof.Gen.Pre_finite_inputs
import proofs.«132658_j120259084569_1_alg».proof.Proof.Equal
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the kernel's result
    function of the arguments, which the reference's last stage equals. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Equal.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
